-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S2x4096x4096 .f32) (main_arg1 : FVec F S4096x4096 .f32) (main_arg2 : FVec F S16x4096 .f32) (main_arg3 : FVec F S4096x16 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S2x4096x4096 : Shape := ⟨3, ![2, 4096, 4096]⟩
abbrev S4096x4096 : Shape := ⟨2, ![4096, 4096]⟩
abbrev S16x4096 : Shape := ⟨2, ![16, 4096]⟩
abbrev S4096x16 : Shape := ⟨2, ![4096, 16]⟩
abbrev S8192x4096 : Shape := ⟨2, ![8192, 4096]⟩
abbrev S8192x16 : Shape := ⟨2, ![8192, 16]⟩
abbrev S_ : Shape := ⟨0, ![]⟩
abbrev S8192x128 : Shape := ⟨2, ![8192, 128]⟩
abbrev S4096x128 : Shape := ⟨2, ![4096, 128]⟩
abbrev S2048x1024 : Shape := ⟨2, ![2048, 1024]⟩
abbrev S1024x1024 : Shape := ⟨2, ![1024, 1024]⟩
abbrev S2048x128 : Shape := ⟨2, ![2048, 128]⟩
abbrev S1024x128 : Shape := ⟨2, ![1024, 128]⟩

abbrev nBuf : Space → Nat
  | .hbm => 19
  | .vmem => 10
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S8192x4096, .f32⟩
  | .hbm, ⟨5, _⟩ => ⟨S8192x4096, .bf16⟩
  | .hbm, ⟨6, _⟩ => ⟨S4096x4096, .bf16⟩
  | .hbm, ⟨7, _⟩ => ⟨S16x4096, .bf16⟩
  | .hbm, ⟨8, _⟩ => ⟨S8192x16, .f32⟩
  | .hbm, ⟨9, _⟩ => ⟨S_, .i32⟩
  | .hbm, ⟨10, _⟩ => ⟨S_, .f32⟩
  | .hbm, ⟨11, _⟩ => ⟨S8192x128, .f32⟩
  | .hbm, ⟨12, _⟩ => ⟨S8192x128, .bf16⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S4096x128, .bf16⟩
  | .hbm, ⟨17, _⟩ => ⟨S8192x4096, .f32⟩
  | .hbm, ⟨18, _⟩ => ⟨S2x4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .bf16⟩
  | .local _ .vmem, ⟨7, _⟩ => ⟨S1024x128, .bf16⟩
  | .local _ .vmem, ⟨8, _⟩ => ⟨S2048x1024, .f32⟩
  | .local _ .vmem, ⟨9, _⟩ => ⟨S2048x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x4096x4096_S8192x4096 : S2x4096x4096.ShapeCasts S8192x4096
  bitsLt_bf16_f32 : FTy.bits .bf16 < FTy.bits .f32
  pads_S8192x16_S8192x128_000_01120 : S8192x16.Pads (![0, 0] : Fin 2 → Nat) ![0, 112] ![0, 0] S8192x128
  h_S_ : 0 < S_.numel
  pads_S4096x16_S4096x128_000_01120 : S4096x16.Pads (![0, 0] : Fin 2 → Nat) ![0, 112] ![0, 0] S4096x128
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S8192x4096_S2x4096x4096 : S8192x4096.ShapeCasts S2x4096x4096
  dot_S8192x4096_S16x4096_S8192x16_1_1_0_0_n_n_wf : DotDims.WF S8192x4096 S16x4096 S8192x16 [1] [1] [0] [0] [] []
  dot_S2048x1024_S1024x1024_S2048x1024_1_1_0_0_n_n_wf : DotDims.WF S2048x1024 S1024x1024 S2048x1024 [1] [1] [0] [0] [] []
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .bf16 = 32 ∨ (Rect.block (s := S8192x128) S2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x128.size a
  hwx0_3 : ∀ i : grid0.Coords, EltTy.bits .bf16 = 32 ∨ (Rect.block (s := S4096x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S16x4096 : Shape := ⟨2, ![16, 4096]⟩
abbrev S4096x16 : Shape := ⟨2, ![4096, 16]⟩
abbrev S2x4096x16 : Shape := ⟨3, ![2, 4096, 16]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S2x4096x4096, .f32⟩
  | .hbm, ⟨5, _⟩ => ⟨S2x4096x16, .f32⟩
  | .hbm, ⟨6, _⟩ => ⟨S2x4096x4096, .f32⟩
  | .hbm, ⟨7, _⟩ => ⟨S_, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S2x4096x4096 : S_.BroadcastsInDim S2x4096x4096 (![] : Fin 0 → Fin S2x4096x4096.rank)
  dot_S2x4096x4096_S4096x4096_S2x4096x4096_2_1_01_0_n_n_wf : DotDims.WF S2x4096x4096 S4096x4096 S2x4096x4096 [2] [1] [0, 1] [0] [] []
  dot_S2x4096x4096_S16x4096_S2x4096x16_2_1_01_0_n_n_wf : DotDims.WF S2x4096x4096 S16x4096 S2x4096x16 [2] [1] [0, 1] [0] [] []
  dot_S2x4096x16_S4096x16_S2x4096x4096_2_1_01_0_n_n_wf : DotDims.WF S2x4096x16 S4096x16 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf
def dot_S2x4096x4096_S16x4096_S2x4096x16_2_1_01_0_n_n : DotDims S2x4096x4096 S16x4096 S2x4096x16 where
  lhsContracting := [2]
  rhsContracting := [1]
  lhsNonContracting := [0, 1]
  rhsNonContracting := [0]
  lhsBatch := []
  rhsBatch := []
  wf := dot_S2x4096x4096_S16x4096_S2x4096x16_2_1_01_0_n_n_wf
def dot_S2x4096x16_S4096x16_S2x4096x4096_2_1_01_0_n_n : DotDims S2x4096x16 S4096x16 S2x4096x4096 where
  lhsContracting := [2]
  rhsContracting := [1]
  lhsNonContracting := [0, 1]
  rhsNonContracting := [0]
  lhsBatch := []
  rhsBatch := []
  wf := dot_S2x4096x16_S4096x16_S2x4096x4096_2_1_01_0_n_n_wf

class Facts : Prop extends Facts₀ where

variable [Facts]
-- ==== Proof.KernelCases.lean ====
/-
  What one grid step leaves in the output block, in each of the three situations a step can be in.

  The grid is 4 × 4 × 4: a block of 2048 rows, a block of 1024 output columns, and, innermost, a quarter of the
  contraction. The output block stays in place through the four contraction steps.
    · first quarter: the block is zeroed, then the quarter's partial product is added to it;
    · second and third quarters: the quarter's partial product is added to what the step before left;
    · last quarter: the quarter's partial product is added, and then the low-rank term, doubled, is added to that.
  Each step's result is one whole store, so the block ends holding that store's value, and a load of the whole block
  made after a whole store reads what that store wrote. The statements hold for any float interpretation.
-/
import proofs.«169866_j30803505447138_2_alg».proof.Proof.Gen.KernelIdeal.Frame
import Idealize.ShloMosaic.Lib.Pipeline.Value
import Idealize.ShloMosaic.Lib.Tactic

noncomputable section
namespace Cert.KernelIdeal.Cases
open Idealize.ShloMosaic Idealize.ShloMosaic.TcCoe Idealize.SL.Sem
open Cert.KernelIdeal Cert.KernelIdeal.Gen
variable {F : FTy → Type} [FloatOps F]

/-- The zero offsets of a rank-2 block. -/
theorem hz : (![0, 0] : Fin 2 → Nat) = fun _ => 0 := funext fun a => by fin_cases a <;> rfl

/-- A middle step: the step's partial product added to the block as the step found it. -/
theorem out_B (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S2048x1024 .f32) (harg7 : arg7.IsWhole) (hc0 : ¬cond0_0 i) (hc1 : ¬cond0_1 i) (x0 : Vec F S2048x1024 .bf16) (x1 : Vec F S1024x1024 .bf16) (x2 : Vec F S2048x128 .bf16) (x3 : Vec F S1024x128 .bf16) (xo4 : Vec F S2048x1024 .f32) :
    out0_B_4 c i arg3 harg3 arg4 harg4 arg5 harg5 arg6 harg6 arg7 harg7 hc0 hc1 x0 x1 x2 x3 xo4 = k0_pay2 x0 x1 xo4 := by
  unfold out0_B_4
  rw [View.read_writes_eq_canon _ _ _ (cover0_B_4 c i arg3 harg3 arg4 harg4 arg5 harg5 arg6 harg6 arg7 harg7 hc0 hc1 x0 x1 x2 x3 xo4)]
  unfold kernelRun0_B
  dsimp only
  rw [View.canon_unit_zero hz]
  simp only [View.readAt_eq_ld, harg3.read_unread, harg4.read_unread, harg7.read_unread,
    View.ld_unit_zero (S := S2048x1024) hz, View.ld_unit_zero (S := S1024x1024) hz]

/-- The first step: the step's partial product added to the zero block. -/
theorem out_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S2048x1024 .f32) (harg7 : arg7.IsWhole) (hc0 : cond0_0 i) (hc1 : ¬cond0_1 i) (x0 : Vec F S2048x1024 .bf16) (x1 : Vec F S1024x1024 .bf16) (x2 : Vec F S2048x128 .bf16) (x3 : Vec F S1024x128 .bf16) :
    out0_A_4 c i arg3 harg3 arg4 harg4 arg5 harg5 arg6 harg6 arg7 harg7 hc0 hc1 x0 x1 x2 x3 = k0_pay2 x0 x1 (k0_pay1 (F := F)) := by
  unfold out0_A_4
  rw [View.read_writes_eq_canon _ _ _ (cover0_A_4 c i arg3 harg3 arg4 harg4 arg5 harg5 arg6 harg6 arg7 harg7 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, harg3.read_unread, harg4.read_unread,
    View.ld_unit_zero (S := S2048x1024) hz, View.ld_unit_zero (S := S1024x1024) hz]

/-- The last step: the low-rank term, doubled, added to (the step's partial product added to the block as found). -/
theorem out_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S2048x1024 .f32) (harg7 : arg7.IsWhole) (hc0 : ¬cond0_0 i) (hc1 : cond0_1 i) (x0 : Vec F S2048x1024 .bf16) (x1 : Vec F S1024x1024 .bf16) (x2 : Vec F S2048x128 .bf16) (x3 : Vec F S1024x128 .bf16) (xo4 : Vec F S2048x1024 .f32) :
    out0_C_4 c i arg3 harg3 arg4 harg4 arg5 harg5 arg6 harg6 arg7 harg7 hc0 hc1 x0 x1 x2 x3 xo4 = k0_pay3 x2 x3 (k0_pay2 x0 x1 xo4) := by
  unfold out0_C_4
  rw [View.read_writes_eq_canon _ _ _ (cover0_C_4 c i arg3 harg3 arg4 harg4 arg5 harg5 arg6 harg6 arg7 harg7 hc0 hc1 x0 x1 x2 x3 xo4)]
  unfold kernelRun0_C
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread, harg7.read_unread,
    View.ld_unit_zero (S := S2048x1024) hz, View.ld_unit_zero (S := S1024x1024) hz,
    View.ld_unit_zero (S := S2048x128) hz, View.ld_unit_zero (S := S1024x128) hz]

end Cert.KernelIdeal.Cases
end
-- ==== Proof.KernelBlocks.lean ====
/-
  The output block when it is written back, and where each step's input blocks sit in their arrays.

  Grid point t (0 ≤ t < 64) is (row block t / 16, column block (t / 4) mod 4, contraction quarter t mod 4). The output
  block is written back only after the last quarter, t mod 4 = 3, and what it then holds was built in exactly four
  steps, t − 3, t − 2, t − 1 and t, the first of which starts from the zero block. So at such a point the block is

      lowrank_t ( partial_t ( partial_{t−1} ( partial_{t−2} ( partial_{t−3} ( zero ) ) ) ) ).

  A step's input blocks are rectangles of the arrays the region finds: rows 2048·(t/16) + · and columns
  1024·(t mod 4) + · of the row operand; rows 1024·((t/4) mod 4) + · and the same columns of the column operand; the
  same row ranges, all 128 columns, of the two low-rank operands. The statements hold for any float interpretation.
-/
import proofs.«169866_j30803505447138_2_alg».proof.Proof.KernelCases

noncomputable section

namespace Cert.KernelIdeal.Blocks

open Idealize.ShloMosaic Idealize.ShloMosaic.TcCoe Idealize.SL.Sem
open Cert.KernelIdeal Cert.KernelIdeal.Gen Cert.KernelIdeal.Cases

variable {F : FTy → Type} [FloatOps F]
variable (m : (ℓ : Loc nD τ sig) → Buf (Elt F) ℓ)

/-- The grid point before `t` (itself, at the first point). -/
abbrev prev (t : Fin cfg0.N) : Fin cfg0.N := ⟨t.val - 1, Nat.lt_of_le_of_lt (Nat.sub_le _ _) t.isLt⟩

theorem lt64 (t : Fin cfg0.N) : t.val < 64 := lt_of_lt_of_eq t.isLt (show cfg0.N = 64 from N_0)

/-- The output block after a last-quarter step: four steps from the zero block. -/
theorem outsAt_last (c : Dev nD) (t : Fin cfg0.N) (h3 : t.val % 4 = 3) :
    outsAt0 m c t.val t.isLt
      = k0_pay3 (iblk m c 2 t) (iblk m c 3 t)
          (k0_pay2 (iblk m c 0 t) (iblk m c 1 t)
            (k0_pay2 (iblk m c 0 (prev t)) (iblk m c 1 (prev t))
              (k0_pay2 (iblk m c 0 (prev (prev t))) (iblk m c 1 (prev (prev t)))
                (k0_pay2 (iblk m c 0 (prev (prev (prev t)))) (iblk m c 1 (prev (prev (prev t)))) (k0_pay1 (F := F)))))) := by
  have hN := lt64 t
  have e0 := outsAt0_C m c t (by omega) h3
  rw [out_C] at e0
  have e1 := outsAt0_B m c (prev t) (by show ¬(t.val - 1) % 4 = 0; omega) (by show ¬(t.val - 1) % 4 = 3; omega)
  rw [out_B] at e1
  have e2 := outsAt0_B m c (prev (prev t)) (by show ¬(t.val - 1 - 1) % 4 = 0; omega) (by show ¬(t.val - 1 - 1) % 4 = 3; omega)
  rw [out_B] at e2
  have e3 := outsAt0_A m c (prev (prev (prev t))) (by show (t.val - 1 - 1 - 1) % 4 = 0; omega) (by show ¬(t.val - 1 - 1 - 1) % 4 = 3; omega)
  rw [out_A] at e3
  rw [e0]
  show k0_pay3 _ _ (k0_pay2 _ _ (outsAt0 m c (prev t).val (prev t).isLt)) = _
  rw [e1]
  show k0_pay3 _ _ (k0_pay2 _ _ (k0_pay2 _ _ (outsAt0 m c (prev (prev t)).val (prev (prev t)).isLt))) = _
  rw [e2]
  show k0_pay3 _ _ (k0_pay2 _ _ (k0_pay2 _ _ (k0_pay2 _ _ (outsAt0 m c (prev (prev (prev t))).val (prev (prev (prev t))).isLt)))) = _
  rw [e3]

/-- Where each window's block sits at point `t`, decided once over the 64 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = 0
    ∧ win0_3.index t (0 : Fin 2) = t.val / 4 % 4 ∧ win0_3.index t (1 : Fin 2) = 0
    ∧ win0_4.index t (0 : Fin 2) = t.val / 16 ∧ win0_4.index t (1 : Fin 2) = t.val / 4 % 4 :=
  (by decide +kernel : ∀ t : Fin grid0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = 0
    ∧ win0_3.index t (0 : Fin 2) = t.val / 4 % 4 ∧ win0_3.index t (1 : Fin 2) = 0
    ∧ win0_4.index t (0 : Fin 2) = t.val / 16 ∧ win0_4.index t (1 : Fin 2) = t.val / 4 % 4)

/-- The row operand's block: entry `y` is the array's entry `i` at row 2048·(t/16) + y₀, column 1024·(t mod 4) + y₁. -/
theorem blk0_apply (c : Dev nD) (t : Fin cfg0.N) (y : S2048x1024.Idx) (i : S8192x4096.Idx)
    (h0 : (i 0).val = t.val / 16 * 2048 + (y 0).val) (h1 : (i 1).val = t.val % 4 * 1024 + (y 1).val) :
    (iblk m c 0 t : Vec F S2048x1024 .bf16) y = V m c main_v1 i := by
  unfold iblk
  rw [View.read_apply]
  show V m c main_v1 _ = V m c main_v1 i
  congr 1
  funext a
  apply Fin.ext
  match a with
  | ⟨0, _⟩ => show win0_0.index t 0 * 2048 + 1 * (y 0).val = (i 0).val; rw [(idx_facts t).1, h0]; omega
  | ⟨1, _⟩ => show win0_0.index t 1 * 1024 + 1 * (y 1).val = (i 1).val; rw [(idx_facts t).2.1, h1]; omega

/-- The column operand's block: row 1024·((t/4) mod 4) + y₀, column 1024·(t mod 4) + y₁. -/
theorem blk1_apply (c : Dev nD) (t : Fin cfg0.N) (y : S1024x1024.Idx) (i : S4096x4096.Idx)
    (h0 : (i 0).val = t.val / 4 % 4 * 1024 + (y 0).val) (h1 : (i 1).val = t.val % 4 * 1024 + (y 1).val) :
    (iblk m c 1 t : Vec F S1024x1024 .bf16) y = V m c main_v2 i := by
  unfold iblk
  rw [View.read_apply]
  show V m c main_v2 _ = V m c main_v2 i
  congr 1
  funext a
  apply Fin.ext
  match a with
  | ⟨0, _⟩ => show win0_1.index t 0 * 1024 + 1 * (y 0).val = (i 0).val; rw [(idx_facts t).2.2.1, h0]; omega
  | ⟨1, _⟩ => show win0_1.index t 1 * 1024 + 1 * (y 1).val = (i 1).val; rw [(idx_facts t).2.2.2.1, h1]; omega

/-- The low-rank row operand's block: row 2048·(t/16) + y₀, column y₁. -/
theorem blk2_apply (c : Dev nD) (t : Fin cfg0.N) (y : S2048x128.Idx) (i : S8192x128.Idx)
    (h0 : (i 0).val = t.val / 16 * 2048 + (y 0).val) (h1 : (i 1).val = (y 1).val) :
    (iblk m c 2 t : Vec F S2048x128 .bf16) y = V m c main_v6 i := by
  unfold iblk
  rw [View.read_apply]
  show V m c main_v6 _ = V m c main_v6 i
  congr 1
  funext a
  apply Fin.ext
  match a with
  | ⟨0, _⟩ => show win0_2.index t 0 * 2048 + 1 * (y 0).val = (i 0).val; rw [(idx_facts t).2.2.2.2.1, h0]; omega
  | ⟨1, _⟩ => show win0_2.index t 1 * 128 + 1 * (y 1).val = (i 1).val; rw [(idx_facts t).2.2.2.2.2.1, h1]; omega

/-- The low-rank column operand's block: row 1024·((t/4) mod 4) + y₀, column y₁. -/
theorem blk3_apply (c : Dev nD) (t : Fin cfg0.N) (y : S1024x128.Idx) (i : S4096x128.Idx)
    (h0 : (i 0).val = t.val / 4 % 4 * 1024 + (y 0).val) (h1 : (i 1).val = (y 1).val) :
    (iblk m c 3 t : Vec F S1024x128 .bf16) y = V m c main_v8 i := by
  unfold iblk
  rw [View.read_apply]
  show V m c main_v8 _ = V m c main_v8 i
  congr 1
  funext a
  apply Fin.ext
  match a with
  | ⟨0, _⟩ => show win0_3.index t 0 * 1024 + 1 * (y 0).val = (i 0).val; rw [(idx_facts t).2.2.2.2.2.2.1, h0]; omega
  | ⟨1, _⟩ => show win0_3.index t 1 * 128 + 1 * (y 1).val = (i 1).val; rw [(idx_facts t).2.2.2.2.2.2.2.1, h1]; omega

end Cert.KernelIdeal.Blocks

end
-- ==== Proof.LibDotNT.lean ====
/-
  A product of an M×K matrix with the TRANSPOSE of an N×K matrix, read at an entry.

  With the contraction taken over the last axis of both operands, entry (p, q) of the result is the sum over k of
  l (p, k) · r (q, k). Over the extended reals, with exact operations, this holds of the matrix unit's product into a
  zero accumulator and of the host's general dot product alike, for all extents M, K, N: there is no rounding and no
  order of summation left in either.
-/
import Idealize.ShloMosaic.PureOps.Ideal.Laws
import Idealize.ShloMosaic.Lib.ValueIdx

open scoped BigOperators

noncomputable section

namespace Cert.Lib.DotNT

open Idealize.ShloMosaic Idealize.ShloMosaic.ValueIdx

variable {M K N : Nat}

/-- The left operand is read at the result's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … and at the contraction position; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand at the result's column, as ITS row, … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … and at the contraction position. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The sum over the one-axis contraction shape, as a sum over `Fin K` of the operands at (p, k) and (q, k). -/
theorem sum_contr {φ₁ φ₂ : FTy} (l : FVec Ideal (⟨2, ![M, K]⟩ : Shape) φ₁) (r : FVec Ideal (⟨2, ![N, K]⟩ : Shape) φ₂)
    (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- The matrix unit's product into a zero accumulator, at entry (p, q). -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply _ prec l r (ix2 p q)).trans (sum_contr l r p q)

/-- The host's general dot product, at entry (p, q). -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply _ prec sched l r (ix2 p q)).trans (sum_contr l r p q)

end Cert.Lib.DotNT

end
-- ==== Proof.KernelPayload.lean ====
/-
  The three values a grid step stores, read at an entry (p, q) of the 2048 × 1024 output block, over the extended
  reals with exact operations (changes of float format are the identity there):
    · the zero block is 0 everywhere;
    · a partial product step is  acc (p, q) + ∑ k < 1024, xblk (p, k) · wblk (q, k);
    · the low-rank step is       acc (p, q) + (∑ j < 128, mid (p, j) · b (q, j)) · 2.
  Both products contract the last axis of both operands (the second operand enters transposed).
-/
import proofs.«169866_j30803505447138_2_alg».proof.Proof.Gen.KernelIdeal.Skeleton
import proofs.«169866_j30803505447138_2_alg».proof.Proof.LibDotNT
import Idealize.ShloMosaic.Lib.Pipeline.Value

open scoped BigOperators

noncomputable section

namespace Cert.KernelIdeal.Payload

open Idealize.ShloMosaic Idealize.ShloMosaic.ValueIdx
open Cert.KernelIdeal Cert.KernelIdeal.Gen

/-- The zero block. -/
theorem pay1_apply (y : S2048x1024.Idx) : k0_pay1 (F := Ideal) y = 0 := by
  unfold k0_pay1
  exact Ideal.ofBits_zero_f32

/-- A partial product step. -/
theorem pay2_apply (v3 : Vec Ideal S2048x1024 .bf16) (v5 : Vec Ideal S1024x1024 .bf16) (v7 : Vec Ideal S2048x1024 .f32)
    (p : Fin 2048) (q : Fin 1024) :
    k0_pay2 (F := Ideal) v3 v5 v7 (ix2 p q) = v7 (ix2 p q) + ∑ k : Fin 1024, v3 (ix2 p k) * v5 (ix2 q k) := by
  unfold k0_pay2
  simp only [shapeCast_self]
  exact congrArg (v7 (ix2 p q) + ·) (Cert.Lib.DotNT.matmul_zero_apply (M := 2048) (K := 1024) (N := 1024) none v3 v5 p q)

/-- The low-rank step. -/
theorem pay3_apply (v15 : Vec Ideal S2048x128 .bf16) (v17 : Vec Ideal S1024x128 .bf16) (v20 : Vec Ideal S2048x1024 .f32)
    (p : Fin 2048) (q : Fin 1024) :
    k0_pay3 (F := Ideal) v15 v17 v20 (ix2 p q)
      = v20 (ix2 p q) + (∑ j : Fin 128, v15 (ix2 p j) * v17 (ix2 q j)) * Ideal.ofBits .f32 0x40000000#32 := by
  unfold k0_pay3
  simp only [shapeCast_self]
  exact congrArg (fun s => v20 (ix2 p q) + s * Ideal.ofBits .f32 0x40000000#32)
    (Cert.Lib.DotNT.matmul_zero_apply (M := 2048) (K := 128) (N := 1024) none v15 v17 p q)

end Cert.KernelIdeal.Payload

end
-- ==== Proof.LibBlockSum.lean ====
/-
  A sum cut into four consecutive blocks.

  A contraction of length 4·K carried out in four steps of K terms, each step added to what the previous steps left
  (starting from zero), is the whole contraction: addition of extended reals is associative and commutative, so no
  finiteness is needed.
-/
import Mathlib.Algebra.BigOperators.Fin
import Mathlib.Algebra.BigOperators.Intervals

open scoped BigOperators

namespace Cert.Lib.BlockSum

/-- A sum over the first `4·K` naturals, as four consecutive blocks of `K`, accumulated left to right from zero. -/
theorem sum_range_four {α : Type*} [AddCommMonoid α] (g : ℕ → α) (K : ℕ) :
    ((((0 + ∑ k ∈ Finset.range K, g k) + ∑ k ∈ Finset.range K, g (K + k)) + ∑ k ∈ Finset.range K, g (2 * K + k))
        + ∑ k ∈ Finset.range K, g (3 * K + k)) = ∑ k ∈ Finset.range (4 * K), g k := by
  rw [zero_add, show 4 * K = K + K + K + K by omega, Finset.sum_range_add, Finset.sum_range_add, Finset.sum_range_add]
  congr 1
  · congr 1
    refine Finset.sum_congr rfl fun k _ => ?_
    rw [show K + K + k = 2 * K + k by omega]
  · refine Finset.sum_congr rfl fun k _ => ?_
    rw [show K + K + K + k = 3 * K + k by omega]

/-- A sum over `Fin n` of a function of the value is the sum over the first `n` naturals. -/
theorem sum_fin_eq_range {α : Type*} [AddCommMonoid α] (g : ℕ → α) (n : ℕ) :
    ∑ k : Fin n, g k.val = ∑ k ∈ Finset.range n, g k := Fin.sum_univ_eq_sum_range g n

/-- A natural number as an index below `n`, wrapping around: total, so that a sum over naturals can index an array. -/
def fmod (n : ℕ) (h : 0 < n) (k : ℕ) : Fin n := ⟨k % n, Nat.mod_lt k h⟩

theorem fmod_val (n : ℕ) (h : 0 < n) (k : ℕ) : (fmod n h k).val = k % n := rfl

/-- On an index already below `n` it is that index. -/
theorem fmod_fin {n : ℕ} (h : 0 < n) (k : Fin n) : fmod n h k.val = k := Fin.ext (Nat.mod_eq_of_lt k.isLt)

end Cert.Lib.BlockSum
-- ==== Proof.LoraSpec.lean ====
/-
  The function both programs compute, and the two laws of sums that join their two arrangements of it.

  For a row r of the flattened input (8192 rows, 4096 features), an output column o (4096 of them), rank 16:

      out r o = (∑ d, X r d · W o d) + (∑ j < 16, (∑ d, X r d · A j d) · B o j) · two.

  One program computes the first sum in four consecutive blocks of 1024 terms, each added to what the blocks before
  left, starting from zero; addition is associative and commutative, so this is the whole sum. It computes the second
  sum over 128 positions of which the last 112 hold zero in both factors; 0 · 0 = 0, so those terms vanish. Neither law
  asks the entries to be finite.
-/
import proofs.«169866_j30803505447138_2_alg».proof.Proof.LibBlockSum
import Mathlib.Algebra.BigOperators.Fin
import Mathlib.Algebra.BigOperators.Intervals

open scoped BigOperators

namespace Lora

/-- The specification, over any carrier with a sum and a product. -/
def out {α : Type*} [AddCommMonoid α] [Mul α] {R D O J : ℕ} (X : Fin R → Fin D → α) (W : Fin O → Fin D → α)
    (A : Fin J → Fin D → α) (B : Fin O → Fin J → α) (two : α) (r : Fin R) (o : Fin O) : α :=
  (∑ d, X r d * W o d) + (∑ j, (∑ d, X r d * A j d) * B o j) * two

/-- A sum of 4096 terms accumulated from zero in four consecutive blocks of 1024. -/
theorem four_blocks {α : Type*} [AddCommMonoid α] (f : Fin 4096 → α) (f0 f1 f2 f3 : Fin 1024 → α)
    (h0 : ∀ k : Fin 1024, f0 k = f ⟨k.val, by omega⟩) (h1 : ∀ k : Fin 1024, f1 k = f ⟨1024 + k.val, by omega⟩)
    (h2 : ∀ k : Fin 1024, f2 k = f ⟨2048 + k.val, by omega⟩) (h3 : ∀ k : Fin 1024, f3 k = f ⟨3072 + k.val, by omega⟩) :
    ((((0 + ∑ k, f0 k) + ∑ k, f1 k) + ∑ k, f2 k) + ∑ k, f3 k) = ∑ d, f d := by
  -- the terms as a function of a natural number, zero past the end
  let g : ℕ → α := fun n => if h : n < 4096 then f ⟨n, h⟩ else 0
  have hg : ∀ (c : ℕ) (fj : Fin 1024 → α) (hc : c + 1024 ≤ 4096), (∀ k : Fin 1024, fj k = f ⟨c + k.val, by omega⟩) →
      ∑ k, fj k = ∑ k ∈ Finset.range 1024, g (c + k) := by
    intro c fj hc hfj
    rw [← Fin.sum_univ_eq_sum_range (fun k => g (c + k)) 1024]
    refine Finset.sum_congr rfl fun k _ => ?_
    rw [hfj k]
    show _ = if h : c + k.val < 4096 then f ⟨c + k.val, h⟩ else 0
    rw [dif_pos (by omega)]
  have e0 : ∑ k, f0 k = ∑ k ∈ Finset.range 1024, g k := by
    rw [hg 0 f0 (by omega) (fun k => (h0 k).trans (congrArg f (Fin.ext (by simp))))]
    exact Finset.sum_congr rfl fun k _ => by rw [Nat.zero_add]
  rw [e0, hg 1024 f1 (by omega) h1, hg (2 * 1024) f2 (by omega) h2, hg (3 * 1024) f3 (by omega) h3,
    Cert.Lib.BlockSum.sum_range_four g 1024, ← Fin.sum_univ_eq_sum_range g (4 * 1024)]
  refine Finset.sum_congr rfl fun d _ => ?_
  show (if h : d.val < 4096 then f ⟨d.val, h⟩ else 0) = f d
  rw [dif_pos d.isLt]

/-- A sum of 128 products whose factors both vanish from position 16 on is the sum of the first 16. -/
theorem padded_sum {α : Type*} [AddCommMonoid α] [Mul α] (h00 : (0 : α) * 0 = 0) (P Q : Fin 128 → α) (P' Q' : Fin 16 → α)
    (hP : ∀ j : Fin 128, P j = if h : j.val < 16 then P' ⟨j.val, h⟩ else 0)
    (hQ : ∀ j : Fin 128, Q j = if h : j.val < 16 then Q' ⟨j.val, h⟩ else 0) :
    ∑ j, P j * Q j = ∑ j, P' j * Q' j := by
  let g : ℕ → α := fun n => if h : n < 16 then P' ⟨n, h⟩ * Q' ⟨n, h⟩ else 0
  have e1 : ∑ j, P j * Q j = ∑ j : Fin 128, g j.val := by
    refine Finset.sum_congr rfl fun j _ => ?_
    rw [hP j, hQ j]
    show _ = if h : j.val < 16 then P' ⟨j.val, h⟩ * Q' ⟨j.val, h⟩ else 0
    by_cases h : j.val < 16
    · rw [dif_pos h, dif_pos h, dif_pos h]
    · rw [dif_neg h, dif_neg h, dif_neg h, h00]
  have e2 : ∑ j, P' j * Q' j = ∑ j : Fin 16, g j.val := by
    refine Finset.sum_congr rfl fun j _ => ?_
    show _ = if h : j.val < 16 then P' ⟨j.val, h⟩ * Q' ⟨j.val, h⟩ else 0
    rw [dif_pos j.isLt]
  rw [e1, e2, Fin.sum_univ_eq_sum_range g 128, Fin.sum_univ_eq_sum_range g 16,
    show (128 : ℕ) = 16 + 112 from rfl, Finset.sum_range_add]
  have hz : ∑ k ∈ Finset.range 112, g (16 + k) = 0 := Finset.sum_eq_zero fun k _ => by
    show (if h : 16 + k < 16 then P' ⟨16 + k, h⟩ * Q' ⟨16 + k, h⟩ else 0) = 0
    rw [dif_neg (by omega)]
  rw [hz, add_zero]

end Lora
-- ==== Proof.KernelAccum.lean ====
/-
  The output block when it is written back, read at an entry, over the extended reals.

  At a grid point t with t mod 4 = 3, entry (p, q) of the output block holds, with R = 2048·(t/16) + p the row and
  O = 1024·((t/4) mod 4) + q the output column,

      (∑ d < 4096, X (R, d) · W (O, d)) + (∑ j < 128, M (R, j) · B (O, j)) · 2,

  where X, W, M, B are the four arrays the region is launched on. The first sum arrives as four blocks of 1024 terms,
  one per contraction step, accumulated from the zero block; it is the whole sum because addition is associative and
  commutative.
-/
import proofs.«169866_j30803505447138_2_alg».proof.Proof.KernelBlocks
import proofs.«169866_j30803505447138_2_alg».proof.Proof.KernelPayload
import proofs.«169866_j30803505447138_2_alg».proof.Proof.LoraSpec

open scoped BigOperators

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.Blocks Cert.KernelIdeal.Payload

/-- Four partial-product steps from the zero block, then the low-rank step, at an entry: over any blocks. -/
theorem chain_apply (a0 a1 a2 a3 : Vec Ideal S2048x1024 .bf16) (w0 w1 w2 w3 : Vec Ideal S1024x1024 .bf16)
    (mid : Vec Ideal S2048x128 .bf16) (b : Vec Ideal S1024x128 .bf16) (p : Fin 2048) (q : Fin 1024) :
    k0_pay3 (F := Ideal) mid b (k0_pay2 a3 w3 (k0_pay2 a2 w2 (k0_pay2 a1 w1 (k0_pay2 a0 w0 (k0_pay1 (F := Ideal)))))) (ix2 p q)
      = (((((0 + ∑ k : Fin 1024, a0 (ix2 p k) * w0 (ix2 q k)) + ∑ k : Fin 1024, a1 (ix2 p k) * w1 (ix2 q k))
            + ∑ k : Fin 1024, a2 (ix2 p k) * w2 (ix2 q k)) + ∑ k : Fin 1024, a3 (ix2 p k) * w3 (ix2 q k)))
        + (∑ j : Fin 128, mid (ix2 p j) * b (ix2 q j)) * Ideal.ofBits .f32 0x40000000#32 := by
  rw [pay3_apply, pay2_apply, pay2_apply, pay2_apply, pay2_apply, pay1_apply]

variable (m : (ℓ : Loc nD τ sig) → Buf (Elt Ideal) ℓ)

/-- The windows' blocks at a grid point, and the four arrays the region is launched on, as plain vectors. -/
abbrev xblk (c : Dev nD) (t : Fin cfg0.N) : Vec Ideal S2048x1024 .bf16 := iblk m c 0 t
abbrev wblk (c : Dev nD) (t : Fin cfg0.N) : Vec Ideal S1024x1024 .bf16 := iblk m c 1 t
abbrev mblk (c : Dev nD) (t : Fin cfg0.N) : Vec Ideal S2048x128 .bf16 := iblk m c 2 t
abbrev bblk (c : Dev nD) (t : Fin cfg0.N) : Vec Ideal S1024x128 .bf16 := iblk m c 3 t
abbrev Xarr (c : Dev nD) : FVec Ideal S8192x4096 .bf16 := V m c main_v1
abbrev Warr (c : Dev nD) : FVec Ideal S4096x4096 .bf16 := V m c main_v2
abbrev Marr (c : Dev nD) : FVec Ideal S8192x128 .bf16 := V m c main_v6
abbrev Barr (c : Dev nD) : FVec Ideal S4096x128 .bf16 := V m c main_v8

/-- One term of one contraction step, in the arrays: step t' contributes the columns 1024·(t' mod 4) + k. -/
theorem block_term (c : Dev nD) (t' : Fin cfg0.N) (R : Fin 8192) (O : Fin 4096) (p : Fin 2048) (q : Fin 1024)
    (k : Fin 1024) (D : Fin 4096) (hR : R.val = t'.val / 16 * 2048 + p.val) (hO : O.val = t'.val / 4 % 4 * 1024 + q.val)
    (hD : D.val = t'.val % 4 * 1024 + k.val) :
    xblk m c t' (ix2 p k) * wblk m c t' (ix2 q k) = Xarr m c (ix2 R D) * Warr m c (ix2 O D) :=
  congrArg₂ (· * ·) (blk0_apply m c t' (ix2 p k) (ix2 R D) hR hD) (blk1_apply m c t' (ix2 q k) (ix2 O D) hO hD)

/-- The output block after a last-quarter step, at an entry. -/
theorem last_apply (c : Dev nD) (t : Fin cfg0.N) (h3 : t.val % 4 = 3) (p : Fin 2048) (q : Fin 1024)
    (R : Fin 8192) (O : Fin 4096) (hR : R.val = t.val / 16 * 2048 + p.val) (hO : O.val = t.val / 4 % 4 * 1024 + q.val) :
    (outsAt0 m c t.val t.isLt : Vec Ideal S2048x1024 .f32) (ix2 p q)
      = (∑ d : Fin 4096, Xarr m c (ix2 R d) * Warr m c (ix2 O d))
        + (∑ j : Fin 128, Marr m c (ix2 R j) * Barr m c (ix2 O j)) * Ideal.ofBits .f32 0x40000000#32 := by
  have hN := lt64 t
  have e1 : (t.val - 1) % 4 = 2 ∧ (t.val - 1) / 16 = t.val / 16 ∧ (t.val - 1) / 4 % 4 = t.val / 4 % 4 := by omega
  have e2 : (t.val - 1 - 1) % 4 = 1 ∧ (t.val - 1 - 1) / 16 = t.val / 16 ∧ (t.val - 1 - 1) / 4 % 4 = t.val / 4 % 4 := by omega
  have e3 : (t.val - 1 - 1 - 1) % 4 = 0 ∧ (t.val - 1 - 1 - 1) / 16 = t.val / 16 ∧ (t.val - 1 - 1 - 1) / 4 % 4 = t.val / 4 % 4 := by
    omega
  refine (congrFun (outsAt_last m c t h3) (ix2 p q)).trans ?_
  refine (chain_apply (xblk m c (prev (prev (prev t)))) (xblk m c (prev (prev t))) (xblk m c (prev t)) (xblk m c t)
    (wblk m c (prev (prev (prev t)))) (wblk m c (prev (prev t))) (wblk m c (prev t)) (wblk m c t)
    (mblk m c t) (bblk m c t) p q).trans ?_
  refine congrArg₂ (· + ·) ?_ ?_
  · -- the four blocks are the whole contraction
    refine Lora.four_blocks (fun d => Xarr m c (ix2 R d) * Warr m c (ix2 O d))
      (fun k => xblk m c (prev (prev (prev t))) (ix2 p k) * wblk m c (prev (prev (prev t))) (ix2 q k))
      (fun k => xblk m c (prev (prev t)) (ix2 p k) * wblk m c (prev (prev t)) (ix2 q k))
      (fun k => xblk m c (prev t) (ix2 p k) * wblk m c (prev t) (ix2 q k))
      (fun k => xblk m c t (ix2 p k) * wblk m c t (ix2 q k))
      (fun k => ?_) (fun k => ?_) (fun k => ?_) (fun k => ?_)
    · exact block_term m c (prev (prev (prev t))) R O p q k ⟨k.val, by omega⟩
        (hR.trans (by rw [← e3.2.1])) (hO.trans (by rw [← e3.2.2]))
        (show k.val = (t.val - 1 - 1 - 1) % 4 * 1024 + k.val by rw [e3.1]; omega)
    · exact block_term m c (prev (prev t)) R O p q k ⟨1024 + k.val, by omega⟩
        (hR.trans (by rw [← e2.2.1])) (hO.trans (by rw [← e2.2.2]))
        (show 1024 + k.val = (t.val - 1 - 1) % 4 * 1024 + k.val by rw [e2.1])
    · exact block_term m c (prev t) R O p q k ⟨2048 + k.val, by omega⟩
        (hR.trans (by rw [← e1.2.1])) (hO.trans (by rw [← e1.2.2]))
        (show 2048 + k.val = (t.val - 1) % 4 * 1024 + k.val by rw [e1.1])
    · exact block_term m c t R O p q k ⟨3072 + k.val, by omega⟩ hR hO
        (show 3072 + k.val = t.val % 4 * 1024 + k.val by rw [h3])
  · -- the low-rank operands' blocks are rows of their arrays
    refine congrArg (· * Ideal.ofBits .f32 0x40000000#32) (Finset.sum_congr rfl fun j _ => ?_)
    exact congrArg₂ (· * ·) (blk2_apply m c t (ix2 p j) (ix2 R j) hR rfl) (blk3_apply m c t (ix2 q j) (ix2 O j) hO rfl)

end Cert.KernelIdeal.Accum

end
-- ==== Proof.KernelHostPrefix.lean ====
/-
  The four arrays the kernel region is launched on, as functions of the program's arguments.

  Before the region the host flattens x from [2, 4096, 4096] to [8192, 4096] (row r = 4096·b + s), changes the float
  format of x, W and A, forms mid = xflat · Aᵀ ([8192, 16]), and widens mid and B from 16 to 128 columns with zeros on
  the right. Over the extended reals a change of float format is the identity, so entry by entry:
    · xflat (r, d) = x (b, s, d) where r = 4096·b + s;
    · the converted W is W;
    · the widened mid at (r, j) is ∑ d, xflat (r, d) · A (j, d) for j < 16, and 0 for j ≥ 16;
    · the widened B at (o, j) is B (o, j) for j < 16, and 0 for j ≥ 16.
-/
import proofs.«169866_j30803505447138_2_alg».proof.Proof.Gen.KernelIdeal.Frame
import proofs.«169866_j30803505447138_2_alg».proof.Proof.LibDotNT
import Idealize.ShloMosaic.Lib.KernelVsHost
import Idealize.ShloMosaic.Lib.Pipeline.Value
import Idealize.ShloMosaic.Lib.StableHlo.Run
import Idealize.ShloMosaic.Lib.Tactic

open scoped BigOperators

noncomputable section

namespace Cert.KernelIdeal.HostPrefix

open Idealize.ShloMosaic Idealize.ShloMosaic.TcCoe Idealize.SL.Sem Idealize.ShloMosaic.StableHlo
open Idealize.ShloMosaic.ValueIdx
open Cert.KernelIdeal Cert.KernelIdeal.Gen

/-! ## The arrays as terms of the arguments, for any float interpretation -/

section Terms
variable {F : FTy → Type} [FloatOps F]
variable (m : (ℓ : Loc nD τ sig) → Buf (Elt F) ℓ)

/-- x flattened to rows, in the narrower float format. -/
abbrev xflat (x : FVec F S2x4096x4096 .f32) : FVec F S8192x4096 .bf16 :=
  truncf .bf16 (shapeCast S8192x4096 x shapeCasts_S2x4096x4096_S8192x4096) bitsLt_bf16_f32

/-- The integer zero the host pads with, converted to a float. -/
abbrev padval : FVec F S_ .f32 := sitofp .f32 (constantI S_ 32 0#32)

/-- mid = xflat · Aᵀ, widened to 128 columns, in the narrower format. -/
abbrev midpad (x : FVec F S2x4096x4096 .f32) (a : FVec F S16x4096 .f32) : FVec F S8192x128 .bf16 :=
  truncf .bf16 (pad S8192x128 ![0, 0] ![0, 112] ![0, 0]
    (Host.dotGeneral dot_S8192x4096_S16x4096_S8192x16_1_1_0_0_n_n none (xflat x) (truncf .bf16 a bitsLt_bf16_f32))
    (padval (F := F)) pads_S8192x16_S8192x128_000_01120 h_S_) bitsLt_bf16_f32

/-- B widened to 128 columns, in the narrower format. -/
abbrev bpad (b : FVec F S4096x16 .f32) : FVec F S4096x128 .bf16 :=
  truncf .bf16 (pad S4096x128 ![0, 0] ![0, 112] ![0, 0] b (padval (F := F)) pads_S4096x16_S4096x128_000_01120 h_S_) bitsLt_bf16_f32

theorem V_v1 (c : Dev nD) :
    (V m c main_v1 : FVec F S8192x4096 .bf16) = xflat (m ((c : Thread nD τ).loc main_arg0)) := by
  dsimp only [V, V0]
  simp only [hostOps0, hostOps0_1, hostOps0_2, hostOps0_3, hostOps0_4, List.flatten_cons, List.flatten_nil, List.append_nil, List.cons_append, List.nil_append]
  after_results
  all_goals rfl

theorem V_v2 (c : Dev nD) :
    (V m c main_v2 : FVec F S4096x4096 .bf16) = truncf .bf16 (m ((c : Thread nD τ).loc main_arg1)) bitsLt_bf16_f32 := by
  dsimp only [V, V0]
  simp only [hostOps0, hostOps0_1, hostOps0_2, hostOps0_3, hostOps0_4, List.flatten_cons, List.flatten_nil, List.append_nil, List.cons_append, List.nil_append]
  after_results
  all_goals rfl

theorem V_v6 (c : Dev nD) :
    (V m c main_v6 : FVec F S8192x128 .bf16)
      = midpad (m ((c : Thread nD τ).loc main_arg0)) (m ((c : Thread nD τ).loc main_arg2)) := by
  dsimp only [V, V0]
  simp only [hostOps0, hostOps0_1, hostOps0_2, hostOps0_3, hostOps0_4, List.flatten_cons, List.flatten_nil, List.append_nil, List.cons_append, List.nil_append]
  after_results
  all_goals rfl

theorem V_v8 (c : Dev nD) :
    (V m c main_v8 : FVec F S4096x128 .bf16) = bpad (m ((c : Thread nD τ).loc main_arg3)) := by
  dsimp only [V, V0]
  simp only [hostOps0, hostOps0_1, hostOps0_2, hostOps0_3, hostOps0_4, List.flatten_cons, List.flatten_nil, List.append_nil, List.cons_append, List.nil_append]
  after_results
  all_goals rfl

end Terms

/-! ## Read at an entry, over the extended reals -/

/-- A matrix with 16 columns widened by 112 columns on the right, read inside the original columns … -/
theorem padcols_in {α : Type} {R : Nat} (x : (⟨2, ![R, 16]⟩ : Shape).Idx → α) {u : Shape} (z : u.Idx → α)
    (h : (⟨2, ![R, 16]⟩ : Shape).Pads ![0, 0] ![0, 112] ![0, 0] (⟨2, ![R, 128]⟩ : Shape)) (hu : 0 < u.numel)
    (r : Fin R) (j : Fin 128) (hj : j.val < 16) :
    pad (⟨2, ![R, 128]⟩ : Shape) ![0, 0] ![0, 112] ![0, 0] x z h hu (ix2 r j) = x (ix2 r ⟨j.val, hj⟩) :=
  pad_apply_of_inside _ _ _ x z h hu (ix2 r j) (ix2 r ⟨j.val, hj⟩) (fun a => by
    match a with
    | ⟨0, _⟩ => show r.val = 0 + r.val * (0 + 1); omega
    | ⟨1, _⟩ => show j.val = 0 + j.val * (0 + 1); omega)

/-- … and in the added columns, where it holds the padding value. -/
theorem padcols_out {α : Type} {R : Nat} (x : (⟨2, ![R, 16]⟩ : Shape).Idx → α) {u : Shape} (z : u.Idx → α)
    (h : (⟨2, ![R, 16]⟩ : Shape).Pads ![0, 0] ![0, 112] ![0, 0] (⟨2, ![R, 128]⟩ : Shape)) (hu : 0 < u.numel)
    (r : Fin R) (j : Fin 128) (hj : ¬j.val < 16) :
    pad (⟨2, ![R, 128]⟩ : Shape) ![0, 0] ![0, 112] ![0, 0] x z h hu (ix2 r j) = z (Shape.Idx.first hu) :=
  pad_apply_of_not_inside _ _ _ x z h hu (ix2 r j) (1 : Fin 2) (fun hh => hj (by
    have h2 : (j.val - 0) / (0 + 1) < 16 := hh.2.2
    omega))

/-- The padding value is the extended real 0. -/
theorem padval_apply (i : S_.Idx) : padval (F := Ideal) i = 0 := by
  show ((((0#32 : BitVec 32).toInt : ℤ) : ℝ) : EReal) = 0
  simp

/-- The flattened x at row r = 4096·b + s is x at (b, s). -/
theorem xflat_apply (x : FVec Ideal S2x4096x4096 .f32) (r : Fin 8192) (d : Fin 4096) (b : Fin 2) (s : Fin 4096)
    (hr : r.val = b.val * 4096 + s.val) : xflat (F := Ideal) x (ix2 r d) = x (ix3 b s d) := by
  show shapeCast S8192x4096 x shapeCasts_S2x4096x4096_S8192x4096 (ix2 r d) = _
  exact shapeCast_apply x _ (ix2 r d) (ix3 b s d) (by
    rw [Shape.rowMajor_val_two, Shape.rowMajor_val_three]
    show (b.val * 4096 + s.val) * 4096 + d.val = r.val * 4096 + d.val
    rw [hr])

/-- The widened mid: the product with Aᵀ in the first 16 columns, 0 in the rest. -/
theorem midpad_apply (x : FVec Ideal S2x4096x4096 .f32) (a : FVec Ideal S16x4096 .f32) (r : Fin 8192) (j : Fin 128) :
    midpad (F := Ideal) x a (ix2 r j)
      = if h : j.val < 16 then ∑ d : Fin 4096, xflat (F := Ideal) x (ix2 r d) * a (ix2 ⟨j.val, h⟩ d) else 0 := by
  by_cases h : j.val < 16
  · rw [dif_pos h]
    refine (padcols_in (R := 8192) _ _ pads_S8192x16_S8192x128_000_01120 h_S_ r j h).trans ?_
    exact Cert.Lib.DotNT.dotGeneral_apply (M := 8192) (K := 4096) (N := 16) none .single (xflat (F := Ideal) x) a r ⟨j.val, h⟩
  · rw [dif_neg h]
    exact (padcols_out (R := 8192) _ _ pads_S8192x16_S8192x128_000_01120 h_S_ r j h).trans (padval_apply _)

/-- The widened B: B in the first 16 columns, 0 in the rest. -/
theorem bpad_apply (b : FVec Ideal S4096x16 .f32) (o : Fin 4096) (j : Fin 128) :
    bpad (F := Ideal) b (ix2 o j) = if h : j.val < 16 then b (ix2 o ⟨j.val, h⟩) else 0 := by
  by_cases h : j.val < 16
  · rw [dif_pos h]
    exact padcols_in (R := 4096) _ _ pads_S4096x16_S4096x128_000_01120 h_S_ o j h
  · rw [dif_neg h]
    exact (padcols_out (R := 4096) _ _ pads_S4096x16_S4096x128_000_01120 h_S_ o j h).trans (padval_apply _)

end Cert.KernelIdeal.HostPrefix

end
-- ==== Proof.LoraArrays.lean ====
/-
  The arguments as plain matrices over the extended reals, and the result array in its two layouts.

  x has shape [2, 4096, 4096]; flattened, its row r = 4096·b + s is x (b, s, ·). The result in the flat layout
  [8192, 4096] at (r, o), and in the layout [2, 4096, 4096] at (b, s, o), is the specification at row r = 4096·b + s
  and column o: the two layouts hold the same numbers at the same row-major position.
-/
import proofs.«169866_j30803505447138_2_alg».proof.Proof.LoraSpec
import Idealize.ShloMosaic.PureOps.Ideal
import Idealize.ShloMosaic.Lib.ValueIdx

open scoped BigOperators

noncomputable section

namespace Lora

open Idealize.ShloMosaic Idealize.ShloMosaic.ValueIdx

/-- The rows of the flattened x: row r is x (r / 4096, r mod 4096, ·). -/
def rows (x : (⟨3, ![2, 4096, 4096]⟩ : Shape).Idx → EReal) : Fin 8192 → Fin 4096 → EReal :=
  fun r d => x (ix3 (⟨r.val / 4096, by omega⟩ : Fin 2) (⟨r.val % 4096, by omega⟩ : Fin 4096) d)

/-- A rank-2 array as a matrix. -/
def mat {n k : Nat} (w : (⟨2, ![n, k]⟩ : Shape).Idx → EReal) : Fin n → Fin k → EReal := fun i j => w (ix2 i j)

/-- The scaling factor 2, as the programs spell it. -/
def two : EReal := Ideal.ofBits .f32 0x40000000#32

/-- The result at flat row r and column o. -/
def entry (x : (⟨3, ![2, 4096, 4096]⟩ : Shape).Idx → EReal) (w : (⟨2, ![4096, 4096]⟩ : Shape).Idx → EReal)
    (a : (⟨2, ![16, 4096]⟩ : Shape).Idx → EReal) (b : (⟨2, ![4096, 16]⟩ : Shape).Idx → EReal) (r : Fin 8192) (o : Fin 4096) : EReal :=
  out (rows x) (mat w) (mat a) (mat b) two r o

/-- The result in the flat layout. -/
def res2 (x : (⟨3, ![2, 4096, 4096]⟩ : Shape).Idx → EReal) (w : (⟨2, ![4096, 4096]⟩ : Shape).Idx → EReal)
    (a : (⟨2, ![16, 4096]⟩ : Shape).Idx → EReal) (b : (⟨2, ![4096, 16]⟩ : Shape).Idx → EReal) :
    (⟨2, ![8192, 4096]⟩ : Shape).Idx → EReal := fun i => entry x w a b (i 0) (i 1)

/-- Flat row 4096·b + s. -/
def flatRow (b : Fin 2) (s : Fin 4096) : Fin 8192 := ⟨b.val * 4096 + s.val, by omega⟩

/-- The result in the layout [2, 4096, 4096]. -/
def res3 (x : (⟨3, ![2, 4096, 4096]⟩ : Shape).Idx → EReal) (w : (⟨2, ![4096, 4096]⟩ : Shape).Idx → EReal)
    (a : (⟨2, ![16, 4096]⟩ : Shape).Idx → EReal) (b : (⟨2, ![4096, 16]⟩ : Shape).Idx → EReal) :
    (⟨3, ![2, 4096, 4096]⟩ : Shape).Idx → EReal := fun i => entry x w a b (flatRow (i 0) (i 1)) (i 2)

/-- Row 4096·b + s of the flattened x is x (b, s, ·). -/
theorem rows_flatRow (x : (⟨3, ![2, 4096, 4096]⟩ : Shape).Idx → EReal) (b : Fin 2) (s : Fin 4096) (d : Fin 4096) :
    rows x (flatRow b s) d = x (ix3 b s d) := by
  unfold rows flatRow
  refine congrArg x (funext fun a => ?_)
  match a with
  | ⟨0, _⟩ => exact Fin.ext (by show (b.val * 4096 + s.val) / 4096 = b.val; omega)
  | ⟨1, _⟩ => exact Fin.ext (by show (b.val * 4096 + s.val) % 4096 = s.val; omega)
  | ⟨2, _⟩ => rfl

end Lora

end
-- ==== Proof.KernelEntry.lean ====
/-
  The sums over the launched arrays are the specification's entry.

  With the launched arrays read back to the arguments (the flattened x, W itself, mid widened with zeros, B widened
  with zeros), the 4096-term contraction is ∑ d, x-row (R, d) · W (O, d), and the 128-term low-rank contraction keeps
  only its first 16 terms, each (∑ d, x-row (R, d) · A (j, d)) · B (O, j): the added columns hold 0 in both factors.
-/
import proofs.«169866_j30803505447138_2_alg».proof.Proof.KernelAccum
import proofs.«169866_j30803505447138_2_alg».proof.Proof.KernelHostPrefix
import proofs.«169866_j30803505447138_2_alg».proof.Proof.LoraArrays

open scoped BigOperators

noncomputable section

namespace Cert.KernelIdeal.Entry

open Idealize.ShloMosaic Idealize.ShloMosaic.TcCoe Idealize.SL.Sem Idealize.ShloMosaic.ValueIdx
open Cert.KernelIdeal Cert.KernelIdeal.Gen Cert.KernelIdeal.Accum Cert.KernelIdeal.HostPrefix

variable (m : (ℓ : Loc nD τ sig) → Buf (Elt Ideal) ℓ)

/-- The four arguments on a device. -/
abbrev argX (c : Dev nD) : FVec Ideal S2x4096x4096 .f32 := m ((c : Thread nD τ).loc main_arg0)
abbrev argW (c : Dev nD) : FVec Ideal S4096x4096 .f32 := m ((c : Thread nD τ).loc main_arg1)
abbrev argA (c : Dev nD) : FVec Ideal S16x4096 .f32 := m ((c : Thread nD τ).loc main_arg2)
abbrev argB (c : Dev nD) : FVec Ideal S4096x16 .f32 := m ((c : Thread nD τ).loc main_arg3)

/-- The launched row operand is the flattened x. -/
theorem Xarr_apply (c : Dev nD) (R : Fin 8192) (d : Fin 4096) : Xarr m c (ix2 R d) = Lora.rows (argX m c) R d :=
  (congrFun (V_v1 m c) (ix2 R d)).trans
    (xflat_apply (argX m c) R d ⟨R.val / 4096, by omega⟩ ⟨R.val % 4096, by omega⟩ (by show R.val = R.val / 4096 * 4096 + R.val % 4096; omega))

/-- The launched column operand is W. -/
theorem Warr_apply (c : Dev nD) (O : Fin 4096) (d : Fin 4096) : Warr m c (ix2 O d) = Lora.mat (argW m c) O d :=
  congrFun (V_v2 m c) (ix2 O d)

/-- The launched low-rank row operand: the product with Aᵀ in its first 16 columns, 0 in the rest. -/
theorem Marr_apply (c : Dev nD) (R : Fin 8192) (j : Fin 128) :
    Marr m c (ix2 R j)
      = if h : j.val < 16 then ∑ d : Fin 4096, Lora.rows (argX m c) R d * Lora.mat (argA m c) ⟨j.val, h⟩ d else 0 := by
  refine (congrFun (V_v6 m c) (ix2 R j)).trans ((midpad_apply (argX m c) (argA m c) R j).trans ?_)
  by_cases h : j.val < 16
  · rw [dif_pos h, dif_pos h]
    refine Finset.sum_congr rfl fun d _ => ?_
    exact congrArg (· * argA m c (ix2 ⟨j.val, h⟩ d))
      (xflat_apply (argX m c) R d ⟨R.val / 4096, by omega⟩ ⟨R.val % 4096, by omega⟩
        (by show R.val = R.val / 4096 * 4096 + R.val % 4096; omega))
  · rw [dif_neg h, dif_neg h]

/-- The launched low-rank column operand: B in its first 16 columns, 0 in the rest. -/
theorem Barr_apply (c : Dev nD) (O : Fin 4096) (j : Fin 128) :
    Barr m c (ix2 O j) = if h : j.val < 16 then Lora.mat (argB m c) O ⟨j.val, h⟩ else 0 :=
  (congrFun (V_v8 m c) (ix2 O j)).trans (bpad_apply (argB m c) O j)

/-- The two sums over the launched arrays are the specification at (R, O). -/
theorem arrays_entry (c : Dev nD) (R : Fin 8192) (O : Fin 4096) :
    (∑ d : Fin 4096, Xarr m c (ix2 R d) * Warr m c (ix2 O d))
        + (∑ j : Fin 128, Marr m c (ix2 R j) * Barr m c (ix2 O j)) * Ideal.ofBits .f32 0x40000000#32
      = Lora.entry (argX m c) (argW m c) (argA m c) (argB m c) R O := by
  unfold Lora.entry Lora.out
  refine congrArg₂ (· + ·) ?_ ?_
  · exact Finset.sum_congr rfl fun d _ => by rw [Xarr_apply, Warr_apply]
  · refine congrArg (· * Ideal.ofBits .f32 0x40000000#32) ?_
    exact Lora.padded_sum (mul_zero (0 : EReal)) (fun j => Marr m c (ix2 R j)) (fun j => Barr m c (ix2 O j))
      (fun j => ∑ d : Fin 4096, Lora.rows (argX m c) R d * Lora.mat (argA m c) j d) (fun j => Lora.mat (argB m c) O j)
      (fun j => Marr_apply m c R j) (fun j => Barr_apply m c O j)

end Cert.KernelIdeal.Entry

end
-- ==== Proof.KernelResult.lean ====
/-
  The kernel's result array.

  A last-quarter step at grid point t writes its output block back to rows 2048·(t/16) + · and columns
  1024·((t/4) mod 4) + · of the flat [8192, 4096] result, and that block is the specification there. Every entry (r, o)
  lies in the block of the point 16·(r/2048) + 4·(o/1024) + 3, which is a last-quarter step, so after the run the flat
  array is the specification everywhere. The host then reshapes it to [2, 4096, 4096]: the same numbers at the same
  row-major position, flat row 4096·b + s becoming (b, s).
-/
import proofs.«169866_j30803505447138_2_alg».proof.Proof.KernelEntry
import Idealize.ShloMosaic.Lib.Pipeline.Value
import Idealize.ShloMosaic.Lib.StableHlo.Run
import Idealize.ShloMosaic.Lib.Tactic

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accum Cert.KernelIdeal.Entry

variable (m : (ℓ : Loc nD τ sig) → Buf (Elt Ideal) ℓ) (ρ : Dev nD → PrngReg)

/-- The specification in the flat layout, of a device's arguments. -/
abbrev flat (c : Dev nD) : FVec Ideal S8192x4096 .f32 := Lora.res2 (argX m c) (argW m c) (argA m c) (argB m c)

/-- The specification in the result's layout, of a device's arguments. -/
abbrev cube (c : Dev nD) : FVec Ideal S2x4096x4096 .f32 := Lora.res3 (argX m c) (argW m c) (argA m c) (argB m c)

/-- What a last-quarter step writes back is its block of the specification. -/
theorem flushed_eq (c : Dev nD) (t : Fin cfg0.N) (hf : (cfg0.win 4).flush t = true) :
    (dats m 0 c).flushed 4 t = ((cfg0.win 4).blk t).view.read (Elt Ideal) (flat m c) := by
  have h3 : t.val % 4 = 3 := (flush0_4 t).mp hf
  have hN := lt64 t
  show (cfg0.win 4).cut (grid0.coords t) ((dats m 0 c).after 4 t) = _
  rw [after0_4]
  funext j
  obtain ⟨p, q, rfl⟩ : ∃ (p : Fin 2048) (q : Fin 1024), j = ix2 p q := ⟨j 0, j 1, eq_ix2 j⟩
  show (outsAt0 m c t.val t.isLt : Vec Ideal S2048x1024 .f32) (ix2 p q) = flat m c (((cfg0.win 4).blk t).view.emb (ix2 p q))
  refine (last_apply m c t h3 p q ⟨t.val / 16 * 2048 + p.val, by omega⟩ ⟨t.val / 4 % 4 * 1024 + q.val, by omega⟩ rfl rfl).trans
    ((arrays_entry m c _ _).trans ?_)
  refine congrArg₂ (Lora.entry (argX m c) (argW m c) (argA m c) (argB m c)) (Fin.ext ?_) (Fin.ext ?_)
  · show t.val / 16 * 2048 + p.val = win0_4.index t 0 * 2048 + 1 * p.val
    rw [(idx_facts t).2.2.2.2.2.2.2.2.1]; omega
  · show t.val / 4 % 4 * 1024 + q.val = win0_4.index t 1 * 1024 + 1 * q.val
    rw [(idx_facts t).2.2.2.2.2.2.2.2.2]; omega

/-- Every entry of the flat result lies in the block of some last-quarter step. -/
theorem cover (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hlt : (i 0).val / 2048 * 16 + (i 1).val / 1024 * 4 + 3 < cfg0.N := by rw [show cfg0.N = 64 from N_0]; omega
  have ht : (⟨_, hlt⟩ : Fin cfg0.N).val = (i 0).val / 2048 * 16 + (i 1).val / 1024 * 4 + 3 := rfl
  refine ⟨⟨_, hlt⟩, (flush0_4 _).mpr (by rw [ht]; omega), ?_⟩
  show i ∈ ((View.whole main_v9).slice (win0_4.rect ⟨_, hlt⟩)).set
  rw [View.set_slice_whole, Rect.mem_set_unit]
  intro a
  match a with
  | ⟨0, _⟩ =>
    show win0_4.index ⟨_, hlt⟩ (0 : Fin 2) * 2048 ≤ (i 0).val ∧ (i 0).val < win0_4.index ⟨_, hlt⟩ (0 : Fin 2) * 2048 + 2048
    rw [(idx_facts ⟨_, hlt⟩).2.2.2.2.2.2.2.2.1, ht]; omega
  | ⟨1, _⟩ =>
    show win0_4.index ⟨_, hlt⟩ (1 : Fin 2) * 1024 ≤ (i 1).val ∧ (i 1).val < win0_4.index ⟨_, hlt⟩ (1 : Fin 2) * 1024 + 1024
    rw [(idx_facts ⟨_, hlt⟩).2.2.2.2.2.2.2.2.2, ht]; omega

/-- After the run the flat result array is the specification. -/
theorem final (c : Dev nD) : (dats m 0 c).arrAt 4 cfg0.N = flat m c :=
  (dats m 0 c).arrAt_eq_of_cover 4 (flat m c) (flushed_eq m c) cover

/-- The reshape of the flat specification is the specification in the result's layout. -/
theorem reshape_flat (c : Dev nD) :
    shapeCast S2x4096x4096 (flat m c) shapeCasts_S8192x4096_S2x4096x4096 = cube m c := by
  funext i
  obtain ⟨b, s, o, rfl⟩ : ∃ (b : Fin 2) (s : Fin 4096) (o : Fin 4096), i = ix3 b s o := ⟨i 0, i 1, i 2, eq_ix3 i⟩
  exact shapeCast_apply (flat m c) _ (ix3 b s o) (ix2 (Lora.flatRow b s) o) (by
    rw [Shape.rowMajor_val_two, Shape.rowMajor_val_three]
    rfl)

/-- The host's reshape after the region, applied to the region's result array. -/
theorem tail_eq (c : Dev nD) :
    Pipeline.afterTail₀ cfgs (dats m) 0 (V0 m) [hostOps1] c main_v10 = cube m c := by
  unfold Pipeline.afterTail₀
  show StableHlo.after hostOps1 _ (Proc.devRef .tc main_v10) = _
  after_results
  have e := (Pipeline.withArrays_arr spec0 launch0.win.arr_inj c (V0 m c) (fun w => (dats m 0 c).arrAt w cfg0.N) 4).trans (final m c)
  exact (congrArg (fun A : FVec Ideal S8192x4096 .f32 => shapeCast S2x4096x4096 A shapeCasts_S8192x4096_S2x4096x4096) e).trans
    (reshape_flat m c)

end Cert.KernelIdeal.Result

end
-- ==== Proof.KernelRun.lean ====
/-
  The idealized kernel's run, read: every weakly fair execution terminates with the result array holding the
  specification of the arguments, in the result's layout, and the four arguments unchanged.
-/
import proofs.«169866_j30803505447138_2_alg».proof.Proof.KernelResult

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v10) = cube m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.ReferenceValue.lean ====
/-
  The reference's result is the specification.

  The reference contracts x [2, 4096, 4096] with W over the feature axis, contracts x with A the same way, contracts
  that with B over the rank axis, doubles it and adds. Read at (b, s, o), with every contraction a plain sum over the
  extended reals:

      (∑ d, x (b, s, d) · W (o, d)) + (∑ j < 16, (∑ d, x (b, s, d) · A (j, d)) · B (o, j)) · 2,

  and x (b, s, ·) is row 4096·b + s of the flattened x.
-/
import proofs.«169866_j30803505447138_2_alg».proof.Proof.Gen.ReferenceIdeal.Read
import proofs.«169866_j30803505447138_2_alg».proof.Proof.LoraArrays

open scoped BigOperators

noncomputable section

namespace Cert.ReferenceIdeal.RefValue

open Idealize.ShloMosaic Idealize.ShloMosaic.ValueIdx
open Cert.ReferenceIdeal Cert.ReferenceIdeal.Read

/-- Where the three contractions read their operands, in coordinates. -/
theorem lidx0 (b : Fin 2) (s o k : Fin 4096) : lidx_main_v0 (ix3 b s o) k = ix3 b s k :=
  funext fun a => by match a with | ⟨0, _⟩ => rfl | ⟨1, _⟩ => rfl | ⟨2, _⟩ => rfl
theorem ridx0 (b : Fin 2) (s o k : Fin 4096) : ridx_main_v0 (ix3 b s o) k = ix2 o k :=
  funext fun a => by match a with | ⟨0, _⟩ => rfl | ⟨1, _⟩ => rfl
theorem lidx2 (b : Fin 2) (s o : Fin 4096) (j : Fin 16) : lidx_main_v2 (ix3 b s o) j = ix3 b s j :=
  funext fun a => by match a with | ⟨0, _⟩ => rfl | ⟨1, _⟩ => rfl | ⟨2, _⟩ => rfl
theorem ridx2 (b : Fin 2) (s o : Fin 4096) (j : Fin 16) : ridx_main_v2 (ix3 b s o) j = ix2 o j :=
  funext fun a => by match a with | ⟨0, _⟩ => rfl | ⟨1, _⟩ => rfl
theorem lidx1 (b : Fin 2) (s : Fin 4096) (j : Fin 16) (k : Fin 4096) : lidx_main_v1 (ix3 b s j) k = ix3 b s k :=
  funext fun a => by match a with | ⟨0, _⟩ => rfl | ⟨1, _⟩ => rfl | ⟨2, _⟩ => rfl
theorem ridx1 (b : Fin 2) (s : Fin 4096) (j : Fin 16) (k : Fin 4096) : ridx_main_v1 (ix3 b s j) k = ix2 j k :=
  funext fun a => by match a with | ⟨0, _⟩ => rfl | ⟨1, _⟩ => rfl

/-- The reference's last stage, index by index, is the specification in the result's layout. -/
theorem result_eq (x0 : FVec Ideal S2x4096x4096 .f32) (x1 : FVec Ideal S4096x4096 .f32) (x2 : FVec Ideal S16x4096 .f32)
    (x3 : FVec Ideal S4096x16 .f32) : val_main_v5 (F := Ideal) x0 x1 x2 x3 = Lora.res3 x0 x1 x2 x3 := by
  funext i
  obtain ⟨b, s, o, rfl⟩ : ∃ (b : Fin 2) (s : Fin 4096) (o : Fin 4096), i = ix3 b s o := ⟨i 0, i 1, i 2, eq_ix3 i⟩
  rw [val_main_v5_apply, val_main_v4_apply, val_main_v0_apply, val_main_v2_apply, val_main_v3_apply, val_main_cst_apply]
  show (∑ k : Fin 4096, x0 (lidx_main_v0 (ix3 b s o) k) * x1 (ridx_main_v0 (ix3 b s o) k))
      + (∑ j : Fin 16, val_main_v1 (F := Ideal) x0 x2 (lidx_main_v2 (ix3 b s o) j) * x3 (ridx_main_v2 (ix3 b s o) j))
        * Ideal.ofBits .f32 0x40000000#32
    = (∑ d : Fin 4096, Lora.rows x0 (Lora.flatRow b s) d * Lora.mat x1 o d)
      + (∑ j : Fin 16, (∑ d : Fin 4096, Lora.rows x0 (Lora.flatRow b s) d * Lora.mat x2 j d) * Lora.mat x3 o j) * Lora.two
  refine congrArg₂ (· + ·) (Finset.sum_congr rfl fun k _ => ?_)
    (congrArg (· * Ideal.ofBits .f32 0x40000000#32) (Finset.sum_congr rfl fun j _ => ?_))
  · rw [lidx0, ridx0, Lora.rows_flatRow]; rfl
  · rw [lidx2, ridx2, val_main_v1_apply]
    refine congrArg (· * x3 (ix2 o j)) (Finset.sum_congr rfl fun k _ => ?_)
    rw [lidx1, ridx1, Lora.rows_flatRow]; rfl

end Cert.ReferenceIdeal.RefValue

end
-- ==== Proof.lean ====
/-
  A low-rank-adapted linear layer: Y = X·Wᵀ + ((X·Aᵀ)·Bᵀ)·2 for X of 8192 rows (given as [2, 4096, 4096]) and 4096
  features, W of 4096 output columns, rank 16.

  The kernel flattens X, forms mid = X·Aᵀ on the host, widens mid and B from 16 to 128 columns with zeros, and runs a
  4 × 4 × 4 grid: row block, column block and, innermost, a quarter of the 4096-long contraction. The 2048 × 1024 output
  block stays in place through the four quarters — zeroed at the first, a partial product added at each, the doubled
  low-rank product mid·Bᵀ added after the last — and is then written back; the host reshapes the result to
  [2, 4096, 4096]. The reference contracts over the whole axis at once, with rank 16.

  Over the extended reals, with exact operations and changes of float format the identity, both compute

      Y (r, o) = (∑ d, X (r, d) · W (o, d)) + (∑ j < 16, (∑ d, X (r, d) · A (j, d)) · B (o, j)) · 2.

  The kernel's four accumulated blocks are the whole sum because addition of extended reals is associative and
  commutative, and its 112 added columns contribute 0 · 0 = 0 each; so the two results agree entry by entry, with no
  appeal to the inputs being finite. The modules: the specification and the two laws of sums (LoraSpec, LoraArrays);
  what a grid step leaves in the output block in each of its three situations (KernelCases), those values at an entry
  (KernelPayload), the block when it is written back and where the input blocks sit (KernelBlocks, KernelAccum); the
  arrays the host prepares (KernelHostPrefix, KernelEntry); the whole result array and the reshape (KernelResult,
  KernelRun); the reference (ReferenceValue). The three frame claims are the generated frames and the reference's
  generated run; the idealization changed nothing in the kernel's text, so that claim is trivial.
-/
import proofs.«169866_j30803505447138_2_alg».proof.Defs
import proofs.«169866_j30803505447138_2_alg».proof.Proof.Gen.Kernel
import proofs.«169866_j30803505447138_2_alg».proof.Proof.Gen.Kernel.Skeleton
import proofs.«169866_j30803505447138_2_alg».proof.Proof.Gen.Kernel.Launch
import proofs.«169866_j30803505447138_2_alg».proof.Proof.Gen.Kernel.Points
import proofs.«169866_j30803505447138_2_alg».proof.Proof.Gen.Kernel.Frame
import proofs.«169866_j30803505447138_2_alg».proof.Proof.Gen.KernelIdeal
import proofs.«169866_j30803505447138_2_alg».proof.Proof.Gen.KernelIdeal.Skeleton
import proofs.«169866_j30803505447138_2_alg».proof.Proof.Gen.KernelIdeal.Launch
import proofs.«169866_j30803505447138_2_alg».proof.Proof.Gen.KernelIdeal.Points
import proofs.«169866_j30803505447138_2_alg».proof.Proof.Gen.KernelIdeal.Frame
import proofs.«169866_j30803505447138_2_alg».proof.Proof.Gen.ReferenceIdeal
import proofs.«169866_j30803505447138_2_alg».proof.Proof.Gen.ReferenceIdeal.Run
import proofs.«169866_j30803505447138_2_alg».proof.Proof.Gen.ReferenceIdeal.Read
import proofs.«169866_j30803505447138_2_alg».proof.Proof.Gen.Pre_finite_inputs
import proofs.«169866_j30803505447138_2_alg».proof.Proof.KernelRun
import proofs.«169866_j30803505447138_2_alg».proof.Proof.ReferenceValue
import Idealize.ShloMosaic.Adequacy
import Idealize.ShloMosaic.Init

noncomputable section

namespace Cert.Proof

open Idealize.ShloMosaic Idealize.SL.Sem

/-- The kernel as printed runs, faults nowhere and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree, the kernel's result array and the reference's end at one and the same function of them. -/
theorem algebraic : Cert.algebraic_KernelIdeal_ReferenceIdeal := by
  intro m ρ m' ρ' _ hagree
  refine ⟨fun c => Cert.KernelIdeal.Result.cube m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
